-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S512x512 : Shape := ⟨2, ![512, 512]⟩
abbrev S512x1 : Shape := ⟨2, ![512, 1]⟩
abbrev S512x4096 : Shape := ⟨2, ![512, 4096]⟩

abbrev nBuf : Space → Nat
  | .hbm => 16
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S4096x512, .bf16⟩
  | .hbm, ⟨15, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x1, .f32⟩
  | .local _ .vmem, ⟨3, _⟩ => ⟨S512x1, .f32⟩
  | .local _ .vmem, ⟨4, _⟩ => ⟨S4096x512, .bf16⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S_S16384x512 : S_.BroadcastsInDim S16384x512 (![] : Fin 0 → Fin S16384x512.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .bf16 = 32 ∨ (Rect.block (s := S16384x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S16384x4096.size a
  hwx0_4 : ∀ i : grid0.Coords, EltTy.bits .f32 = 32 ∨ (Rect.block (s := S16384x4096) S512x4096.size (cc0_transform_4 i) (hinb0_4 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.Finite.lean ====
/-
  Every coordinate of the two input arrays is a real number.

  The precondition says that, of every entry x of either array, |x| < +∞, where |x| is max(x, −x) on the extended
  reals; and that all these comparisons hold together (their conjunction over each array, and the conjunction of the
  two arrays' results, is true).  An extended real whose absolute value is below +∞ is neither +∞ nor −∞ (both have
  absolute value +∞), so it is a real.
-/
import proofs.«147464_j91122026152887_2_alg».proof.Pre_finite_inputs
import Idealize.ShloMosaic.Lib.ReduceAll
import Idealize.ShloMosaic.Lib.ValueIdx

noncomputable section

namespace Cert.Distance

open Idealize.ShloMosaic Idealize.ShloMosaic.ValueIdx

/-- An extended real whose absolute value compares below the word of +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- Under the precondition every entry of the points and of the centres is a real number. -/
theorem real_of_pre [Cert.Pre_finite_inputs.Facts]
    (a : FVec Ideal Cert.Pre_finite_inputs.S16384x512 .f32) (b : FVec Ideal Cert.Pre_finite_inputs.S4096x512 .f32)
    (h : Cert.Pre_finite_inputs.fn (F := Ideal) a b = fun _ => 1#1) :
    (∀ i, ∃ r : ℝ, a i = r) ∧ (∀ i, ∃ r : ℝ, b i = r) := by
  have h0 := congrFun h ix0
  dsimp only [Cert.Pre_finite_inputs.fn] at h0
  obtain ⟨h1, h2⟩ := IntOp.andi_eq_one.1 h0
  exact ⟨fun i => real_of_abs_lt_inf _ (Host.reduce_andi_all _ _ _ _ _ h1 i),
    fun i => real_of_abs_lt_inf _ (Host.reduce_andi_all _ _ _ _ _ h2 i)⟩

end Cert.Distance

end
-- ==== Proof.Distance.lean ====
/-
  Pairwise squared distances between 16384 points and 4096 centres in dimension 512, over the extended reals.

  For a point x and a centre c the squared distance is |x|² + |c|² − 2·⟨x, c⟩.  It is written here in two arrangements
  of the cross term: with the factor −2 carried inside the inner product, Σ_k (x_k · (−2)) · c_k, added to the two
  squared lengths (`sqDistAt`); and with the factor 2 outside, subtracted (`sqDistAt_eq_sub`).  The two agree
  when every coordinate of x and c is a real number: then both inner products are real, a real factor moves across a
  finite real sum, and subtracting a real is adding its negative.  (With an infinite coordinate the inner products may
  be sums of +∞ and −∞, where the factor does not distribute; the squared lengths themselves may be anything.)
-/
import Idealize.ShloMosaic.PureOps.Ideal
import Idealize.ShloMosaic.Lib.ValueIdx

noncomputable section

open scoped BigOperators

namespace Cert.Distance

open Idealize.ShloMosaic Idealize.ShloMosaic.ValueIdx

/-- The single-precision word of 2.0 denotes the real number 2. -/
theorem ofBits_two : Ideal.ofBits .f32 0x40000000#32 = ((2 : ℝ) : EReal) := by
  simp [Ideal.ofBits, Ideal.ieee, -EReal.coe_mul]; norm_num

/-- The single-precision word of −2.0 denotes the real number −2. -/
theorem ofBits_negTwo : Ideal.ofBits .f32 0xC0000000#32 = ((-2 : ℝ) : EReal) := by
  simp [Ideal.ofBits, Ideal.ieee, -EReal.coe_mul]; norm_num

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real vectors x and c: Σ_k (x_k · (−2)) · c_k = −(2 · Σ_k x_k · c_k). -/
theorem inner_scaled {ι : Type*} [Fintype ι] (x c : ι → EReal) (hx : ∀ k, ∃ r : ℝ, x k = r) (hc : ∀ k, ∃ r : ℝ, c k = r) :
    ∑ k, (x k * ((-2 : ℝ) : EReal)) * c k = -(((2 : ℝ) : EReal) * ∑ k, x k * c k) := by
  choose xr hxr using hx
  choose cr hcr using hc
  simp only [hxr, hcr, ← EReal.coe_mul, ← coe_sum, ← EReal.coe_neg]
  refine congrArg _ ?_
  rw [Finset.mul_sum, ← Finset.sum_neg_distrib]
  exact Finset.sum_congr rfl fun k _ => by ring

/-- The squared length of row `r` of an array with rows of length 512: the zero word plus Σ_k a[r,k]². -/
def rowSq {R : Nat} (a : (⟨2, ![R, 512]⟩ : Shape).Idx → EReal) (r : Fin R) : EReal :=
  Ideal.ofBits .f32 0x00000000#32 + ∑ k : Fin 512, a (ix2 r k) * a (ix2 r k)

/-- The squared distance between point `p` and centre `q`, the factor −2 inside the inner product. -/
def sqDistAt (x : (⟨2, ![16384, 512]⟩ : Shape).Idx → EReal) (c : (⟨2, ![4096, 512]⟩ : Shape).Idx → EReal)
    (p : Fin 16384) (q : Fin 4096) : EReal :=
  (rowSq x p + rowSq c q) + ∑ k : Fin 512, (x (ix2 p k) * Ideal.ofBits .f32 0xC0000000#32) * c (ix2 q k)

/-- The array of all squared distances. -/
def sqDist (x : (⟨2, ![16384, 512]⟩ : Shape).Idx → EReal) (c : (⟨2, ![4096, 512]⟩ : Shape).Idx → EReal) :
    (⟨2, ![16384, 4096]⟩ : Shape).Idx → EReal :=
  fun i => sqDistAt x c ⟨(i 0).val, idx2_lt0 i⟩ ⟨(i 1).val, idx2_lt1 i⟩

theorem sqDist_ix2 (x : (⟨2, ![16384, 512]⟩ : Shape).Idx → EReal) (c : (⟨2, ![4096, 512]⟩ : Shape).Idx → EReal)
    (p : Fin 16384) (q : Fin 4096) : sqDist x c (ix2 p q) = sqDistAt x c p q := rfl

/-- With real coordinates, the squared lengths minus twice the inner product is the same squared distance. -/
theorem sqDistAt_eq_sub (x : (⟨2, ![16384, 512]⟩ : Shape).Idx → EReal) (c : (⟨2, ![4096, 512]⟩ : Shape).Idx → EReal)
    (hx : ∀ i, ∃ r : ℝ, x i = r) (hc : ∀ i, ∃ r : ℝ, c i = r) (p : Fin 16384) (q : Fin 4096) :
    (rowSq x p + rowSq c q) - Ideal.ofBits .f32 0x40000000#32 * ∑ k : Fin 512, x (ix2 p k) * c (ix2 q k)
      = sqDistAt x c p q := by
  unfold sqDistAt
  rw [ofBits_two, ofBits_negTwo,
    inner_scaled (fun k : Fin 512 => x (ix2 p k)) (fun k : Fin 512 => c (ix2 q k)) (fun k => hx _) (fun k => hc _),
    sub_eq_add_neg]

end Cert.Distance

end
-- ==== Proof.Reference.lean ====
/-
  The reference computes the squared distances.

  Read one entry (p, q) at a time, the reference's result is: the squared length of point p (a row sum, kept as a
  column and spread along the row) plus the squared length of centre q (a row sum, kept as a row and spread down the
  column), minus 2 times the inner product of point p with centre q.  With real coordinates that is the squared
  distance in the arrangement with the factor −2 inside the inner product (`Distance.sqDistAt_eq_sub`).
-/
import proofs.«147464_j91122026152887_2_alg».proof.Proof.Gen.ReferenceIdeal.Read
import proofs.«147464_j91122026152887_2_alg».proof.Proof.Distance

noncomputable section

open scoped BigOperators

namespace Cert.Distance

open Idealize.ShloMosaic Idealize.ShloMosaic.ValueIdx Cert.ReferenceIdeal Cert.ReferenceIdeal.Read

/-- The reference's column of squared lengths of the points, read at row `r`. -/
theorem pointSq_apply (x : FVec Ideal S16384x512 .f32) (r : Fin 16384) (z : Fin 1) :
    val_main_v2 (F := Ideal) x (ix2 r z) = rowSq x r := by
  have e : ∀ k : Fin 512, idx_main_v1 (idx_main_v2 (ix2 r z)) k = ix2 r k := fun k =>
    funext fun a => Fin.ext (by match a with | ⟨0, _⟩ => rfl | ⟨1, _⟩ => rfl)
  rw [val_main_v2_apply, val_main_v1_apply]
  simp only [val_main_v0_apply, val_main_cst_apply, e, Ideal.mulf_def, Ideal.ofBits_def]
  rfl

/-- The reference's row of squared lengths of the centres, read at column `q`. -/
theorem centreSq_apply (c : FVec Ideal S4096x512 .f32) (z : Fin 1) (q : Fin 4096) :
    val_main_v5 (F := Ideal) c (ix2 z q) = rowSq c q := by
  have e : ∀ k : Fin 512, idx_main_v4 (idx_main_v5 (ix2 z q)) k = ix2 q k := fun k =>
    funext fun a => Fin.ext (by match a with | ⟨0, _⟩ => rfl | ⟨1, _⟩ => rfl)
  rw [val_main_v5_apply, val_main_v4_apply]
  simp only [val_main_v3_apply, val_main_cst_0_apply, e, Ideal.mulf_def, Ideal.ofBits_def]
  rfl

/-- The reference's result array, for inputs with real coordinates, is the array of squared distances. -/
theorem reference_eq (x : FVec Ideal S16384x512 .f32) (c : FVec Ideal S4096x512 .f32)
    (hx : ∀ i, ∃ r : ℝ, x i = r) (hc : ∀ i, ∃ r : ℝ, c i = r) :
    val_main_v12 (F := Ideal) x c = sqDist x c := by
  funext i
  obtain ⟨p, q, rfl⟩ : ∃ (p : Fin 16384) (q : Fin 4096), i = ix2 p q := ⟨i 0, i 1, eq_ix2 i⟩
  rw [sqDist_ix2, ← sqDistAt_eq_sub x c hx hc p q]
  -- the row of the points that entry (p, q) reads, and the row of the centres
  have e1 : ∀ k : Fin 512, idx_main_v1 (idx_main_v2 (idx_main_v7 (ix2 p q))) k = ix2 p k := fun k =>
    funext fun a => Fin.ext (by match a with | ⟨0, _⟩ => rfl | ⟨1, _⟩ => rfl)
  have e4 : ∀ k : Fin 512, idx_main_v4 (idx_main_v5 (idx_main_v8 (ix2 p q))) k = ix2 q k := fun k =>
    funext fun a => Fin.ext (by match a with | ⟨0, _⟩ => rfl | ⟨1, _⟩ => rfl)
  have el : ∀ k : Fin 512, lidx_main_v6 (ix2 p q) k = ix2 p k := fun k =>
    funext fun a => Fin.ext (by match a with | ⟨0, _⟩ => rfl | ⟨1, _⟩ => rfl)
  have er : ∀ k : Fin 512, ridx_main_v6 (ix2 p q) k = ix2 q k := fun k =>
    funext fun a => Fin.ext (by match a with | ⟨0, _⟩ => rfl | ⟨1, _⟩ => rfl)
  rw [val_main_v12_apply, val_main_v9_apply, val_main_v11_apply, val_main_v7_apply, val_main_v8_apply,
    val_main_v2_apply, val_main_v5_apply, val_main_v1_apply, val_main_v4_apply, val_main_v10_apply, val_main_v6_apply]
  simp only [val_main_v0_apply, val_main_v3_apply, val_main_cst_apply, val_main_cst_0_apply, val_main_cst_1_apply,
    e1, e4, el, er, Ideal.subf_def, Ideal.addf_def, Ideal.mulf_def, Ideal.ofBits_def]
  rfl

end Cert.Distance

end
-- ==== Proof.Payload.lean ====
/-
  One entry of a block of the kernel's output.

  The body adds three things at entry (p, q) of a 512 × 4096 block: the p-th entry of a column of 512 numbers, the q-th
  entry of a row of 4096 numbers, and the product of a 512 × 512 matrix with the transpose of a 4096 × 512 matrix at
  (p, q), accumulated from zero — the sum over k of (row p of the first)[k] · (row q of the second)[k].
-/
import proofs.«147464_j91122026152887_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Distance

open Idealize.ShloMosaic Idealize.ShloMosaic.ValueIdx Cert.KernelIdeal Cert.KernelIdeal.Gen

/-- The product's left operand index at output entry `i` and contraction index `k`: (row of `i`, `k`). -/
abbrev lrow (i : S512x4096.Idx) (k : Fin 512) : S512x512.Idx := fun a => match a with
  | ⟨0, _⟩ => ⟨(i 0).val, (i 0).isLt⟩
  | ⟨1, _⟩ => ⟨k.val, k.isLt⟩
/-- The right operand index: (column of `i`, `k`) — the second matrix enters transposed. -/
abbrev rrow (i : S512x4096.Idx) (k : Fin 512) : S4096x512.Idx := fun a => match a with
  | ⟨0, _⟩ => ⟨(i 1).val, (i 1).isLt⟩
  | ⟨1, _⟩ => ⟨k.val, k.isLt⟩

local notation "D" => dot_S512x512_S4096x512_S512x4096_1_1_0_0_n_n

theorem lhs_0 (i : S512x4096.Idx) (q : (D).contr.Idx) : ((D).lhsIdx i q 0).val = (i 0).val := by
  unfold DotDims.lhsIdx
  rw [dif_neg (show ¬(0 : Fin S512x512.rank) ∈ (D).lhsBatch by decide), dif_pos (show (0 : Fin S512x512.rank) ∈ (D).lhsNonContracting by decide)]
  rfl
theorem lhs_1 (i : S512x4096.Idx) (q : (D).contr.Idx) : ((D).lhsIdx i q 1).val = (q ⟨0, by decide⟩).val :=
  (D).lhsIdx_val_of_single rfl i q
theorem rhs_0 (i : S512x4096.Idx) (q : (D).contr.Idx) : ((D).rhsIdx i q 0).val = (i 1).val := by
  unfold DotDims.rhsIdx
  rw [dif_neg (show ¬(0 : Fin S4096x512.rank) ∈ (D).rhsBatch by decide), dif_pos (show (0 : Fin S4096x512.rank) ∈ (D).rhsNonContracting by decide)]
  rfl
theorem rhs_1 (i : S512x4096.Idx) (q : (D).contr.Idx) : ((D).rhsIdx i q 1).val = (q ⟨0, by decide⟩).val :=
  (D).rhsIdx_val_of_single rfl i q

/-- The matrix product into a zero accumulator, read at an entry: the inner product of a row with a row. -/
theorem product_apply (l : FVec Ideal S512x512 .bf16) (r : FVec Ideal S4096x512 .bf16) (i : S512x4096.Idx) :
    matmul D none l r (constant (F := Ideal) S512x4096 .f32 0x00000000#32) i = ∑ k : Fin 512, l (lrow i k) * r (rrow i k) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : (D).lhsIdx i ((contrEquiv1 D 512 rfl rfl).symm k) = lrow i k := funext fun a => Fin.ext (by
    match a with
    | ⟨0, _⟩ => exact lhs_0 _ _
    | ⟨1, _⟩ => exact (lhs_1 _ _).trans hk)
  have er : (D).rhsIdx i ((contrEquiv1 D 512 rfl rfl).symm k) = rrow i k := funext fun a => Fin.ext (by
    match a with
    | ⟨0, _⟩ => exact rhs_0 _ _
    | ⟨1, _⟩ => exact (rhs_1 _ _).trans hk)
  rw [el, er]

/-- The body's stored value at entry (p, q) of the block. -/
theorem payload_apply (x0 : Vec Ideal S512x512 .bf16) (x2 : Vec Ideal S4096x512 .bf16) (x5 : Vec Ideal S512x1 .f32)
    (x7 : Vec Ideal S1x4096 .f32) (p : Fin 512) (q : Fin 4096) :
    k0_pay1 x0 x2 x5 x7 (ix2 p q)
      = (x5 (ix2 p (0 : Fin 1)) + x7 (ix2 (0 : Fin 1) q)) + ∑ k : Fin 512, x0 (ix2 p k) * x2 (ix2 q k) := by
  unfold k0_pay1
  simp only [shapeCast_self]
  rw [addf_apply, addf_apply, product_apply]
  have e5 : broadcastTo S512x4096 x5 broadcasts_S512x1_S512x4096 (ix2 p q) = x5 (ix2 p (0 : Fin 1)) :=
    broadcastTo_apply x5 _ (ix2 p q) (ix2 p (0 : Fin 1)) (fun a => by
      match a with
      | ⟨0, _⟩ => show p.val = if (512 : Nat) = 1 then 0 else p.val; rw [if_neg (by decide)]
      | ⟨1, _⟩ => show 0 = if (1 : Nat) = 1 then 0 else q.val; rw [if_pos rfl])
  have e7 : broadcastTo S512x4096 x7 broadcasts_S1x4096_S512x4096 (ix2 p q) = x7 (ix2 (0 : Fin 1) q) :=
    broadcastTo_apply x7 _ (ix2 p q) (ix2 (0 : Fin 1) q) (fun a => by
      match a with
      | ⟨0, _⟩ => show 0 = if (1 : Nat) = 1 then 0 else p.val; rw [if_pos rfl]
      | ⟨1, _⟩ => show q.val = if (4096 : Nat) = 1 then 0 else q.val; rw [if_neg (by decide)])
  rw [e5, e7]
  have el : ∀ k : Fin 512, lrow (ix2 p q) k = ix2 p k := fun k =>
    funext fun a => Fin.ext (by match a with | ⟨0, _⟩ => rfl | ⟨1, _⟩ => rfl)
  have er : ∀ k : Fin 512, rrow (ix2 p q) k = ix2 q k := fun k =>
    funext fun a => Fin.ext (by match a with | ⟨0, _⟩ => rfl | ⟨1, _⟩ => rfl)
  simp only [el, er]

end Cert.Distance

end
-- ==== Proof.Stages.lean ====
/-
  What the four operand arrays of the kernel hold when the kernel is launched.

  Before the launch the program computes, from the points x and the centres c: the column of squared lengths of the
  points and the row of squared lengths of the centres — by the same operations, in the same order, as the reference's
  own first stages —; the points with every coordinate multiplied by −2; and the centres unchanged (a change of float
  format is the identity on the extended reals).
-/
import proofs.«147464_j91122026152887_2_alg».proof.Proof.Gen.KernelIdeal.Frame
import proofs.«147464_j91122026152887_2_alg».proof.Proof.Reference
import Idealize.ShloMosaic.Lib.StableHlo.Run

noncomputable section

namespace Cert.Distance

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The points as launched: 16384 rows of 512 extended reals. -/
abbrev points (c : Dev nD) : S16384x512.Idx → EReal := m ((c : Thread nD τ).loc main_arg0)
/-- The centres as launched: 4096 rows of 512 extended reals. -/
abbrev centres (c : Dev nD) : S4096x512.Idx → EReal := m ((c : Thread nD τ).loc main_arg1)

/-- The kernel's second operand is the reference's column of squared lengths of the points. -/
theorem pointSq_stage (c : Dev nD) :
    (V m c main_v2 : S16384x1.Idx → EReal)
      = Cert.ReferenceIdeal.Read.val_main_v2 (F := Ideal) (points m c) := by
  dsimp only [V, hostOps0]; after_results <;> rfl

/-- The kernel's fourth operand is the reference's row of squared lengths of the centres. -/
theorem centreSq_stage (c : Dev nD) :
    (V m c main_v5 : S1x4096.Idx → EReal)
      = Cert.ReferenceIdeal.Read.val_main_v5 (F := Ideal) (centres m c) := by
  dsimp only [V, hostOps0]; after_results <;> rfl

/-- The kernel's first operand: the points, every coordinate times the word of −2. -/
theorem scaled_stage (c : Dev nD) :
    (V m c main_v8 : S16384x512.Idx → EReal)
      = truncf .bf16 (mulf (points m c)
          (broadcastInDim S16384x512 ![] bcast_S_S16384x512 (constant (F := Ideal) S_ .f32 0xC0000000#32))) bitsLt_bf16_f32 := by
  dsimp only [V, hostOps0]; after_results <;> rfl

/-- The kernel's third operand: the centres. -/
theorem centres_stage (c : Dev nD) :
    (V m c main_v9 : S4096x512.Idx → EReal)
      = truncf .bf16 (show FVec Ideal S4096x512 .f32 from centres m c) bitsLt_bf16_f32 := by
  dsimp only [V, hostOps0]; after_results <;> rfl

/-- Read at an entry: the squared length of point `r`. -/
theorem pointSq_stage_apply (c : Dev nD) (r : Fin 16384) (z : Fin 1) :
    (V m c main_v2 : S16384x1.Idx → EReal) (ix2 r z) = rowSq (points m c) r := by
  rw [pointSq_stage]; exact pointSq_apply _ r z

/-- Read at an entry: the squared length of centre `q`. -/
theorem centreSq_stage_apply (c : Dev nD) (z : Fin 1) (q : Fin 4096) :
    (V m c main_v5 : S1x4096.Idx → EReal) (ix2 z q) = rowSq (centres m c) q := by
  rw [centreSq_stage]; exact centreSq_apply _ z q

/-- Read at an entry: coordinate `k` of point `r`, times the word of −2. -/
theorem scaled_stage_apply (c : Dev nD) (r : Fin 16384) (k : Fin 512) :
    (V m c main_v8 : S16384x512.Idx → EReal) (ix2 r k)
      = points m c (ix2 r k) * Ideal.ofBits .f32 0xC0000000#32 := by
  rw [scaled_stage]; rfl

/-- Read at an entry: coordinate `k` of centre `q`. -/
theorem centres_stage_apply (c : Dev nD) (q : Fin 4096) (k : Fin 512) :
    (V m c main_v9 : S4096x512.Idx → EReal) (ix2 q k)
      = centres m c (ix2 q k) := by
  rw [centres_stage]; rfl

end Cert.Distance

end
-- ==== Proof.Blocks.lean ====
/-
  From blocks to the whole array of squared distances.

  The kernel runs at 32 grid points.  At point t it reads rows 512·t … 512·t + 511 of the scaled points and of the
  column of their squared lengths, all of the centres and all of the row of their squared lengths, and writes rows
  512·t … 512·t + 511 of the result.  Entry (p, q) of what it writes is the squared distance between point 512·t + p
  and centre q; the 32 row blocks cover the result array (row r is in block r / 512), so the array ends holding every
  squared distance.
-/
import proofs.«147464_j91122026152887_2_alg».proof.Proof.Gen.KernelIdeal.Value
import proofs.«147464_j91122026152887_2_alg».proof.Proof.Payload
import proofs.«147464_j91122026152887_2_alg».proof.Proof.Stages

noncomputable section

open scoped BigOperators

namespace Cert.Distance

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zeros2 : (![0, 0] : Fin 2 → Nat) = fun _ => 0 := funext fun a => by fin_cases a <;> rfl

/-- Which block each operand and the result take at grid point `t`: row block `t` of the scaled points, of their
    squared lengths and of the result; the one block of the centres and of their squared lengths. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The scaled points' block at point `t`, read at (p, k), is the scaled points at (512·t + p, k). -/
theorem scaled_block (c : Dev nD) (t : Fin cfg0.N) (y : S512x512.Idx) (g : S16384x512.Idx)
    (h0 : (g 0).val = t.val * 512 + (y 0).val) (h1 : (g 1).val = (y 1).val) :
    (iblk m c 0 t : Vec Ideal S512x512 .bf16) y = (V m c main_v8 : S16384x512.Idx → EReal) g := by
  obtain ⟨e0, e1, -⟩ := block_indices t
  show (V m c main_v8 : S16384x512.Idx → EReal) (((cfg0.win 0).blk t).view.emb y) = _
  refine congrArg (V m c main_v8 : S16384x512.Idx → EReal) (funext fun a => Fin.ext ?_)
  match a with
  | ⟨0, _⟩ => show win0_0.index t (0 : Fin 2) * 512 + 1 * (y 0).val = (g 0).val; rw [e0, h0]; omega
  | ⟨1, _⟩ => show win0_0.index t (1 : Fin 2) * 512 + 1 * (y 1).val = (g 1).val; rw [e1, h1]; omega

/-- The block of the points' squared lengths at point `t`, read at (p, 0), is the column at (512·t + p, 0). -/
theorem pointSq_block (c : Dev nD) (t : Fin cfg0.N) (y : S512x1.Idx) (g : S16384x1.Idx)
    (h0 : (g 0).val = t.val * 512 + (y 0).val) (h1 : (g 1).val = (y 1).val) :
    (iblk m c 1 t : Vec Ideal S512x1 .f32) y = (V m c main_v2 : S16384x1.Idx → EReal) g := by
  obtain ⟨-, -, e0, e1, -⟩ := block_indices t
  show (V m c main_v2 : S16384x1.Idx → EReal) (((cfg0.win 1).blk t).view.emb y) = _
  refine congrArg (V m c main_v2 : S16384x1.Idx → EReal) (funext fun a => Fin.ext ?_)
  match a with
  | ⟨0, _⟩ => show win0_1.index t (0 : Fin 2) * 512 + 1 * (y 0).val = (g 0).val; rw [e0, h0]; omega
  | ⟨1, _⟩ => show win0_1.index t (1 : Fin 2) * 1 + 1 * (y 1).val = (g 1).val; rw [e1, h1]; omega

/-- The centres' block at any point is the whole array of centres. -/
theorem centres_block (c : Dev nD) (t : Fin cfg0.N) (y : S4096x512.Idx) :
    (iblk m c 2 t : Vec Ideal S4096x512 .bf16) y = (V m c main_v9 : S4096x512.Idx → EReal) y := by
  obtain ⟨-, -, -, -, e0, e1, -⟩ := block_indices t
  show (V m c main_v9 : S4096x512.Idx → EReal) (((cfg0.win 2).blk t).view.emb y) = _
  refine congrArg (V m c main_v9 : S4096x512.Idx → EReal) (funext fun a => Fin.ext ?_)
  match a with
  | ⟨0, _⟩ => show win0_2.index t (0 : Fin 2) * 4096 + 1 * (y 0).val = (y 0).val; rw [e0]; omega
  | ⟨1, _⟩ => show win0_2.index t (1 : Fin 2) * 512 + 1 * (y 1).val = (y 1).val; rw [e1]; omega

/-- The block of the centres' squared lengths at any point is the whole row. -/
theorem centreSq_block (c : Dev nD) (t : Fin cfg0.N) (y : S1x4096.Idx) :
    (iblk m c 3 t : Vec Ideal S1x4096 .f32) y = (V m c main_v5 : S1x4096.Idx → EReal) y := by
  obtain ⟨-, -, -, -, -, -, e0, e1, -⟩ := block_indices t
  show (V m c main_v5 : S1x4096.Idx → EReal) (((cfg0.win 3).blk t).view.emb y) = _
  refine congrArg (V m c main_v5 : S1x4096.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 4096 + 1 * (y 1).val = (y 1).val; rw [e1]; omega

/-- One entry of one block.  If the four operand blocks hold, at the places entry (p, q) reads, coordinate k of
    point r times −2, the squared length of point r, coordinate k of centre q and the squared length of centre q,
    then the body's value at (p, q) is the squared distance between point r and centre q. -/
theorem block_entry (x : S16384x512.Idx → EReal) (c : S4096x512.Idx → EReal)
    (B0 : Vec Ideal S512x512 .bf16) (B1 : Vec Ideal S512x1 .f32) (B2 : Vec Ideal S4096x512 .bf16) (B3 : Vec Ideal S1x4096 .f32)
    (j : S512x4096.Idx) (p : Fin 512) (q : Fin 4096) (r : Fin 16384) (hj : j = ix2 p q)
    (h0 : ∀ k : Fin 512, B0 (ix2 p k) = x (ix2 r k) * Ideal.ofBits .f32 0xC0000000#32)
    (h1 : B1 (ix2 p (0 : Fin 1)) = rowSq x r)
    (h2 : ∀ k : Fin 512, B2 (ix2 q k) = c (ix2 q k))
    (h3 : B3 (ix2 (0 : Fin 1) q) = rowSq c q) :
    k0_pay1 B0 B2 B1 B3 j = sqDistAt x c r q := by
  subst hj
  rw [payload_apply, h1, h3]
  unfold sqDistAt
  simp only [h0, h2]

/-- What point `t` writes back is block `t` of the array of squared distances. -/
theorem flushed_eq (c : Dev nD) (t : Fin cfg0.N) :
    (dats m 0 c).flushed 4 t = ((cfg0.win 4).blk t).view.read (Elt Ideal) (sqDist (points m c) (centres m c)) := by
  rw [flushed4]
  unfold out0_4
  rw [View.canon_unit_zero zeros2]
  simp only [View.ld_unit_zero (S := S512x512) zeros2, View.ld_unit_zero (S := S4096x512) zeros2,
    View.ld_unit_zero (S := S512x1) zeros2, View.ld_unit_zero (S := S1x4096) zeros2]
  obtain ⟨-, -, -, -, -, -, -, -, e0, e1⟩ := block_indices t
  funext j
  have hj0 : (j 0).val < 512 := (j 0).isLt
  have hj1 : (j 1).val < 4096 := (j 1).isLt
  have ht : t.val < 32 := lt_of_lt_of_eq t.isLt N_0
  have hr : t.val * 512 + (j 0).val < 16384 := by omega
  show k0_pay1 (iblk m c 0 t) (iblk m c 2 t) (iblk m c 1 t) (iblk m c 3 t) j
    = sqDist (points m c) (centres m c) (((cfg0.win 4).blk t).view.emb j)
  have hi : ((cfg0.win 4).blk t).view.emb j
      = ix2 (⟨t.val * 512 + (j 0).val, hr⟩ : Fin 16384) (⟨(j 1).val, hj1⟩ : Fin 4096) :=
    funext fun a => Fin.ext (by
      match a with
      | ⟨0, _⟩ => show win0_4.index t (0 : Fin 2) * 512 + 1 * (j 0).val = t.val * 512 + (j 0).val; rw [e0]; omega
      | ⟨1, _⟩ => show win0_4.index t (1 : Fin 2) * 4096 + 1 * (j 1).val = (j 1).val; rw [e1]; omega)
  rw [hi, sqDist_ix2]
  exact block_entry (points m c) (centres m c) (iblk m c 0 t) (iblk m c 1 t) (iblk m c 2 t) (iblk m c 3 t) j
    ⟨(j 0).val, hj0⟩ ⟨(j 1).val, hj1⟩ ⟨t.val * 512 + (j 0).val, hr⟩
    (funext fun a => by match a with | ⟨0, _⟩ => rfl | ⟨1, _⟩ => rfl)
    (fun k => (scaled_block m c t (ix2 ⟨(j 0).val, hj0⟩ k) (ix2 ⟨t.val * 512 + (j 0).val, hr⟩ k) rfl rfl).trans
      (scaled_stage_apply m c ⟨t.val * 512 + (j 0).val, hr⟩ k))
    ((pointSq_block m c t (ix2 ⟨(j 0).val, hj0⟩ (0 : Fin 1)) (ix2 ⟨t.val * 512 + (j 0).val, hr⟩ (0 : Fin 1)) rfl rfl).trans
      (pointSq_stage_apply m c ⟨t.val * 512 + (j 0).val, hr⟩ 0))
    (fun k => (centres_block m c t (ix2 ⟨(j 1).val, hj1⟩ k)).trans (centres_stage_apply m c ⟨(j 1).val, hj1⟩ k))
    ((centreSq_block m c t (ix2 (0 : Fin 1) ⟨(j 1).val, hj1⟩)).trans (centreSq_stage_apply m c 0 ⟨(j 1).val, hj1⟩))

/-- An index of the result is in point `t`'s block iff each coordinate is in the block's range on its axis. -/
theorem mem_block (t : Fin cfg0.N) (i : S16384x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v10).slice (win0_4.rect t)).set ↔ _
  rw [View.set_slice_whole, Rect.mem_set_unit]
  exact Iff.rfl

/-- Every entry of the result is in some point's block: row r is in block r / 512. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : grid0.N = 32 := N_0
  have hlt : (i 0).val / 512 < cfg0.N := by show (i 0).val / 512 < grid0.N; rw [hN]; omega
  obtain ⟨-, -, -, -, -, -, -, -, e0, e1⟩ := block_indices ⟨(i 0).val / 512, hlt⟩
  refine ⟨⟨(i 0).val / 512, hlt⟩, flush0_4 _, ?_⟩
  rw [mem_block]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, hlt⟩ (1 : Fin 2) * 4096 ≤ (i 1).val
      ∧ (i 1).val < win0_4.index ⟨(i 0).val / 512, hlt⟩ (1 : Fin 2) * 4096 + 4096
    rw [e1]; omega

/-- The result array after the run is the array of squared distances. -/
theorem final (c : Dev nD) : (dats m 0 c).arrAt 4 cfg0.N = sqDist (points m c) (centres m c) :=
  (dats m 0 c).arrAt_eq_of_cover 4 (sqDist (points m c) (centres m c)) (fun t _ => flushed_eq m c t) covered

/-- The kernel's run: it terminates with the result array at the squared distances and the inputs unchanged. -/
theorem kernel_run : θ_run defs (onTc (τ := τ) (main (F := Ideal))) ⟨m, fun _ => 0, ρ⟩ fun r => ∀ c : Dev nD,
      r.2.mem ((c : Thread nD τ).loc main_v10) = sqDist (points m c) (centres m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Distance

end
-- ==== Proof.lean ====
/-
  The certificate of the pairwise squared-distance kernel.

  The kernel and the reference both compute, for 16384 points and 4096 centres in dimension 512, the array of
  squared distances |x|² + |c|² − 2·⟨x, c⟩.  The kernel multiplies the points by −2 before a matrix product with the
  centres and adds the two squared lengths; the reference subtracts twice the matrix product.  Under the
  precondition every coordinate is a real number, and there the two arrangements agree (Proof/Distance.lean).
  The kernel's side is read block by block off its run (Proof/Stages.lean, Proof/Payload.lean, Proof/Blocks.lean), the
  reference's side one operation at a time (Proof/Reference.lean); the precondition is opened in Proof/Finite.lean.
  The kernel rewrites no operation when it is read over the extended reals, so nothing is owed for that step.
-/
import proofs.«147464_j91122026152887_2_alg».proof.Defs
import proofs.«147464_j91122026152887_2_alg».proof.Proof.Gen.Kernel
import proofs.«147464_j91122026152887_2_alg».proof.Proof.Gen.Kernel.Skeleton
import proofs.«147464_j91122026152887_2_alg».proof.Proof.Gen.Kernel.Launch
import proofs.«147464_j91122026152887_2_alg».proof.Proof.Gen.Kernel.Points
import proofs.«147464_j91122026152887_2_alg».proof.Proof.Gen.Kernel.Frame
import proofs.«147464_j91122026152887_2_alg».proof.Proof.Gen.KernelIdeal
import proofs.«147464_j91122026152887_2_alg».proof.Proof.Gen.KernelIdeal.Skeleton
import proofs.«147464_j91122026152887_2_alg».proof.Proof.Gen.KernelIdeal.Launch
import proofs.«147464_j91122026152887_2_alg».proof.Proof.Gen.KernelIdeal.Points
import proofs.«147464_j91122026152887_2_alg».proof.Proof.Gen.KernelIdeal.Frame
import proofs.«147464_j91122026152887_2_alg».proof.Proof.Gen.ReferenceIdeal
import proofs.«147464_j91122026152887_2_alg».proof.Proof.Gen.Pre_finite_inputs
import proofs.«147464_j91122026152887_2_alg».proof.Proof.Gen.KernelIdeal.Value
import proofs.«147464_j91122026152887_2_alg».proof.Proof.Gen.ReferenceIdeal.Run
import proofs.«147464_j91122026152887_2_alg».proof.Proof.Gen.ReferenceIdeal.Read
import proofs.«147464_j91122026152887_2_alg».proof.Proof.Finite
import proofs.«147464_j91122026152887_2_alg».proof.Proof.Reference
import proofs.«147464_j91122026152887_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its inputs unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its inputs unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree and whose coordinates are all real, the kernel and the reference both end with the array
    of squared distances: the kernel by its blocks, the reference because subtracting twice the inner product is
    adding the inner product taken with the points scaled by −2. -/
theorem algebraic : Cert.algebraic_KernelIdeal_ReferenceIdeal := by
  intro m ρ m' ρ' hpre hagree
  refine ⟨fun c => Cert.Distance.sqDist (Cert.Distance.points m c) (Cert.Distance.centres m c),
    Cert.Distance.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hc⟩ := Cert.Distance.real_of_pre _ _ (hpre c)
  rw [(hagree c).1, (hagree c).2]
  exact (Cert.ReferenceIdeal.Read.val_main_v12_eq _ _).trans (Cert.Distance.reference_eq _ _ hx hc)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
